-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x256x256 : Shape := ⟨4, ![16, 64, 256, 256]⟩
abbrev S256x256 : Shape := ⟨2, ![256, 256]⟩
abbrev S_ : Shape := ⟨0, ![]⟩

class Facts : Prop where
  bcast_S_S16x64x256x256 : S_.BroadcastsInDim S16x64x256x256 (![] : Fin 0 → Fin S16x64x256x256.rank)
  reducesTo_S16x64x256x256_S_d0_1_2_3 : S16x64x256x256.ReducesTo [0, 1, 2, 3] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S16x64x256x256 .f32) (main_arg1 : FVec F S256x256 .f32) : IVec S_ 1 :=
  let main_v0 : FVec F S16x64x256x256 .f32 := Host.absf main_arg0
  let main_cst : FVec F S_ .f32 := constant S_ .f32 0x7F800000#32
  let main_v1 : FVec F S16x64x256x256 .f32 := broadcastInDim S16x64x256x256 ![] bcast_S_S16x64x256x256 main_cst
  let main_v2 : IVec S16x64x256x256 1 := cmpf .olt main_v0 main_v1
  let main_c : IVec S_ 1 := constantI S_ 1 1#1
  let main_v3 : IVec S_ 1 := (fun x v => Host.reduce IntOp.andi x v reducesTo_S16x64x256x256_S_d0_1_2_3 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  main_v8
-- ==== Kernel.lean ====
abbrev S16x64x256x256 : Shape := ⟨4, ![16, 64, 256, 256]⟩
abbrev S256x256 : Shape := ⟨2, ![256, 256]⟩
abbrev S256x128 : Shape := ⟨2, ![256, 128]⟩
abbrev S65536x2x2x256 : Shape := ⟨4, ![65536, 2, 2, 256]⟩
abbrev S65536x2x128 : Shape := ⟨3, ![65536, 2, 128]⟩
abbrev S1024x1x2x256 : Shape := ⟨4, ![1024, 1, 2, 256]⟩
abbrev S1024x2x128 : Shape := ⟨3, ![1024, 2, 128]⟩
abbrev S1024x1x1x256 : Shape := ⟨4, ![1024, 1, 1, 256]⟩
abbrev S1024x256 : Shape := ⟨2, ![1024, 256]⟩
abbrev S1024x128 : Shape := ⟨2, ![1024, 128]⟩
abbrev S1024x1x128 : Shape := ⟨3, ![1024, 1, 128]⟩
abbrev S16x64x64x2x128 : Shape := ⟨5, ![16, 64, 64, 2, 128]⟩
abbrev S16x64x2x64x128 : Shape := ⟨5, ![16, 64, 2, 64, 128]⟩
abbrev S16x64x128x128 : Shape := ⟨4, ![16, 64, 128, 128]⟩

abbrev nBuf : Space → Nat
  | .hbm => 10
  | .vmem => 5
  | .smem => 0
  | _ => 0

abbrev bufTy : (tb : Table) → Fin (tcTables nBuf tb) → BufTy
  | .hbm, ⟨0, _⟩ => ⟨S16x64x256x256, .f32⟩
  | .hbm, ⟨1, _⟩ => ⟨S256x256, .f32⟩
  | .hbm, ⟨2, _⟩ => ⟨S256x256, .f32⟩
  | .hbm, ⟨3, _⟩ => ⟨S256x128, .f32⟩
  | .hbm, ⟨4, _⟩ => ⟨S256x128, .bf16⟩
  | .hbm, ⟨5, _⟩ => ⟨S65536x2x2x256, .f32⟩
  | .hbm, ⟨6, _⟩ => ⟨S65536x2x128, .f32⟩
  | .hbm, ⟨7, _⟩ => ⟨S16x64x64x2x128, .f32⟩
  | .hbm, ⟨8, _⟩ => ⟨S16x64x2x64x128, .f32⟩
  | .hbm, ⟨9, _⟩ => ⟨S16x64x128x128, .f32⟩
  | .local _ .vmem, ⟨0, _⟩ => ⟨S1024x1x2x256, .f32⟩
  | .local _ .vmem, ⟨1, _⟩ => ⟨S1024x1x2x256, .f32⟩
  | .local _ .vmem, ⟨2, _⟩ => ⟨S256x128, .bf16⟩
  | .local _ .vmem, ⟨3, _⟩ => ⟨S1024x2x128, .f32⟩
  | .local _ .vmem, ⟨4, _⟩ => ⟨S1024x2x128, .f32⟩
  | _, _ => ⟨S16x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1x2x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S256x256_S256x128_0_0 : S256x256.Slices ![0, 0] S256x128
  bitsLt_bf16_f32 : FTy.bits .bf16 < FTy.bits .f32
  shapeCasts_S16x64x256x256_S65536x2x2x256 : S16x64x256x256.ShapeCasts S65536x2x2x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1024x1x2x256_S1024x1x1x256_0_0_0_0 : ∀ a, (![0, 0, 0, 0] : Fin 4 → Nat) a + S1024x1x1x256.size a ≤ S1024x1x2x256.size a
  h_S1024x1x1x256 : 0 < S1024x1x1x256.numel
  shapeCasts_S1024x1x1x256_S1024x256 : S1024x1x1x256.ShapeCasts S1024x256
  inb_S1024x1x2x256_S1024x1x1x256_0_0_1_0 : ∀ a, (![0, 0, 1, 0] : Fin 4 → Nat) a + S1024x1x1x256.size a ≤ S1024x1x2x256.size a
  inb_S1024x2x128_S1024x1x128_0_0_0 : ∀ a, (![0, 0, 0] : Fin 3 → Nat) a + S1024x1x128.size a ≤ S1024x2x128.size a
  h_S1024x1x128 : 0 < S1024x1x128.numel
  shapeCasts_S1024x1x128_S1024x128 : S1024x1x128.ShapeCasts S1024x128
  shapeCasts_S1024x128_S1024x1x128 : S1024x128.ShapeCasts S1024x1x128
  inb_S1024x2x128_S1024x1x128_0_1_0 : ∀ a, (![0, 1, 0] : Fin 3 → Nat) a + S1024x1x128.size a ≤ S1024x2x128.size a
  shapeCasts_S65536x2x128_S16x64x64x2x128 : S65536x2x128.ShapeCasts S16x64x64x2x128
  transposes_S16x64x64x2x128_S16x64x2x64x128_0_2_3_1_4 : S16x64x64x2x128.Transposes [0, 2, 3, 1, 4] S16x64x2x64x128
  shapeCasts_S16x64x2x64x128_S16x64x128x128 : S16x64x2x64x128.ShapeCasts S16x64x128x128
  dot_S256x256_S256x256_S256x256_1_0_0_1_n_n_wf : DotDims.WF S256x256 S256x256 S256x256 [1] [0] [0] [1] [] []
  dot_S1024x256_S256x128_S1024x128_1_0_0_1_n_n_wf : DotDims.WF S1024x256 S256x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1x2x256.size a ≤ S65536x2x2x256.size a
  hwx0_0 : ∀ i : grid0.Coords, EltTy.bits .f32 = 32 ∨ (Rect.block (s := S65536x2x2x256) S1024x1x2x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .bf16 = 32 ∨ (Rect.block (s := S256x128) S256x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2x128.size a ≤ S65536x2x128.size a
  hwx0_2 : ∀ i : grid0.Coords, EltTy.bits .f32 = 32 ∨ (Rect.block (s := S65536x2x128) S1024x2x128.size (cc0_transform_2 i) (hinb0_2 i)).WholeWords (EltTy.packing .f32)

variable [Facts₀]

def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf

abbrev win0_0 : Pipeline.Window sig grid0 :=
  Pipeline.Window.ofSpec (Memref.whole main_v3) S1024x1x2x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x2x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x64x256x256 : Shape := ⟨4, ![16, 64, 256, 256]⟩
abbrev S256x256 : Shape := ⟨2, ![256, 256]⟩
abbrev S_ : Shape := ⟨0, ![]⟩
abbrev S16x256x64x256 : Shape := ⟨4, ![16, 256, 64, 256]⟩
abbrev S16x256x16384 : Shape := ⟨3, ![16, 256, 16384]⟩
abbrev S16x64x128x128 : Shape := ⟨4, ![16, 64, 128, 128]⟩

abbrev nBuf : Space → Nat
  | .hbm => 18
  | .vmem => 0
  | .smem => 0
  | _ => 0

abbrev bufTy : (tb : Table) → Fin (tcTables nBuf tb) → BufTy
  | .hbm, ⟨0, _⟩ => ⟨S16x64x256x256, .f32⟩
  | .hbm, ⟨1, _⟩ => ⟨S256x256, .f32⟩
  | .hbm, ⟨2, _⟩ => ⟨S16x64x256x256, .f32⟩
  | .hbm, ⟨3, _⟩ => ⟨S_, .f32⟩
  | .hbm, ⟨4, _⟩ => ⟨S16x64x256x256, .f32⟩
  | .hbm, ⟨5, _⟩ => ⟨S16x64x256x256, .f32⟩
  | .hbm, ⟨6, _⟩ => ⟨S16x64x256x256, .f32⟩
  | .hbm, ⟨7, _⟩ => ⟨S_, .f32⟩
  | .hbm, ⟨8, _⟩ => ⟨S16x64x256x256, .f32⟩
  | .hbm, ⟨9, _⟩ => ⟨S16x64x256x256, .f32⟩
  | .hbm, ⟨10, _⟩ => ⟨S16x64x256x256, .f32⟩
  | .hbm, ⟨11, _⟩ => ⟨S16x64x256x256, .f32⟩
  | .hbm, ⟨12, _⟩ => ⟨S256x256, .f32⟩
  | .hbm, ⟨13, _⟩ => ⟨S16x64x256x256, .f32⟩
  | .hbm, ⟨14, _⟩ => ⟨S16x256x64x256, .f32⟩
  | .hbm, ⟨15, _⟩ => ⟨S16x256x16384, .f32⟩
  | .hbm, ⟨16, _⟩ => ⟨S16x64x256x256, .f32⟩
  | .hbm, ⟨17, _⟩ => ⟨S16x64x128x128, .f32⟩
  | _, _ => ⟨S16x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]

class Facts₀ : Prop where
  bcast_S_S16x64x256x256 : S_.BroadcastsInDim S16x64x256x256 (![] : Fin 0 → Fin S16x64x256x256.rank)
  transposes_S16x64x256x256_S16x256x64x256_0_2_1_3 : S16x64x256x256.Transposes [0, 2, 1, 3] S16x256x64x256
  shapeCasts_S16x256x64x256_S16x256x16384 : S16x256x64x256.ShapeCasts S16x256x16384
  shapeCasts_S16x256x16384_S16x64x256x256 : S16x256x16384.ShapeCasts S16x64x256x256
  slices_S16x64x256x256_S16x64x128x128_0_0_0_0 : S16x64x256x256.Slices ![0, 0, 0, 0] S16x64x128x128
  dot_S256x256_S256x256_S256x256_0_1_1_0_n_n_wf : DotDims.WF S256x256 S256x256 S256x256 [0] [1] [1] [0] [] []
  dot_S16x64x256x256_S256x256_S16x64x256x256_3_1_012_0_n_n_wf : DotDims.WF S16x64x256x256 S256x256 S16x64x256x256 [3] [1] [0, 1, 2] [0] [] []

variable [Facts₀]

def dot_S256x256_S256x256_S256x256_0_1_1_0_n_n : DotDims S256x256 S256x256 S256x256 where
  lhsContracting := [0]
  rhsContracting := [1]
  lhsNonContracting := [1]
  rhsNonContracting := [0]
  lhsBatch := []
  rhsBatch := []
  wf := dot_S256x256_S256x256_S256x256_0_1_1_0_n_n_wf
def dot_S16x64x256x256_S256x256_S16x64x256x256_3_1_012_0_n_n : DotDims S16x64x256x256 S256x256 S16x64x256x256 where
  lhsContracting := [3]
  rhsContracting := [1]
  lhsNonContracting := [0, 1, 2]
  rhsNonContracting := [0]
  lhsBatch := []
  rhsBatch := []
  wf := dot_S16x64x256x256_S256x256_S16x64x256x256_3_1_012_0_n_n_wf

class Facts : Prop extends Facts₀ where

variable [Facts]
-- ==== Proof.LibPlainDot.lean ====
/-
  A plain matrix product read at an index, at the extended reals.

  For a rank-2 product `[M, K] · [K, N] → [M, N]` (one contracted axis: the left operand's columns against the right
  operand's rows, no batch axis) accumulated into the zero block, the entry at `(p, e)` is the finite sum over the
  contracted coordinate `k` of `lhs (p, k) · rhs (k, e)`. The product's dimension record enters only through four
  coordinate facts about its operand index maps (each is a one-line computation for a literal record), so the lemma
  serves any such record at any extents.
-/
import Idealize.ShloMosaic.Lib.ValueIdx
import Idealize.ShloMosaic.PureOps.Ideal.Laws

noncomputable section

namespace Cert.LibPlainDot

open Idealize.ShloMosaic Idealize.ShloMosaic.ValueIdx

/-- `[M, K] · [K, N]` into the zero accumulator, at `(p, e)`: `∑ₖ lhs (p, k) · rhs (k, e)`. The hypotheses say that the
    record contracts ONE axis of extent `K`, that the left operand is read at (output row, contracted coordinate) and the
    right operand at (contracted coordinate, output column). -/
theorem matmul_zero_apply {M K N : ℕ} {φ₁ φ₂ : FTy}
    (D : DotDims ⟨2, ![M, K]⟩ ⟨2, ![K, N]⟩ ⟨2, ![M, N]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (prec : Option ContractPrecision)
    (lhs : FVec Ideal ⟨2, ![M, K]⟩ φ₁) (rhs : FVec Ideal ⟨2, ![K, N]⟩ φ₂) (p : Fin M) (e : Fin N) :
    matmul D prec lhs rhs (constant (F := Ideal) ⟨2, ![M, N]⟩ .f32 0x00000000#32) (ix2 p e)
      = ∑ k : Fin K, lhs (ix2 p k) * rhs (ix2 k e) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p e) ((contrEquiv1 D K hr hs).symm k) = ix2 p k := funext fun a => Fin.ext (by
    match a with
    | ⟨0, _⟩ => exact hl0 _ _
    | ⟨1, _⟩ => exact (hl1 _ _).trans hk)
  have er : D.rhsIdx (ix2 p e) ((contrEquiv1 D K hr hs).symm k) = ix2 k e := funext fun a => Fin.ext (by
    match a with
    | ⟨0, _⟩ => exact (hr0 _ _).trans hk
    | ⟨1, _⟩ => exact hr1 _ _)
  rw [el, er]

end Cert.LibPlainDot

end
-- ==== Proof.LibIdxExt.lean ====
/-
  Two multi-indices of a shape of rank 2, 3, 4 or 5 are equal when their coordinates are equal as natural numbers.

  An index of a shape is a function from the axes to bounded naturals; for a literal rank the axes are finitely
  many, so equality of indices is one numerical equation per axis. Stated once per rank over an arbitrary size
  function, so that a proof about a particular shape supplies the equations and nothing else.
-/
import Idealize.ShloMosaic.Lib.ValueIdx

namespace Cert.LibIdxExt

open Idealize.ShloMosaic

/-- Rank 2. -/
theorem ext2 {d : Fin 2 → Nat} (i j : (⟨2, d⟩ : Shape).Idx)
    (h0 : (i 0).val = (j 0).val) (h1 : (i 1).val = (j 1).val) : i = j :=
  funext fun a => Fin.ext (by
    match a with
    | ⟨0, _⟩ => exact h0
    | ⟨1, _⟩ => exact h1)

/-- Rank 3. -/
theorem ext3 {d : Fin 3 → Nat} (i j : (⟨3, d⟩ : Shape).Idx)
    (h0 : (i 0).val = (j 0).val) (h1 : (i 1).val = (j 1).val) (h2 : (i 2).val = (j 2).val) : i = j :=
  funext fun a => Fin.ext (by
    match a with
    | ⟨0, _⟩ => exact h0
    | ⟨1, _⟩ => exact h1
    | ⟨2, _⟩ => exact h2)

/-- Rank 4. -/
theorem ext4 {d : Fin 4 → Nat} (i j : (⟨4, d⟩ : Shape).Idx)
    (h0 : (i 0).val = (j 0).val) (h1 : (i 1).val = (j 1).val) (h2 : (i 2).val = (j 2).val)
    (h3 : (i 3).val = (j 3).val) : i = j :=
  funext fun a => Fin.ext (by
    match a with
    | ⟨0, _⟩ => exact h0
    | ⟨1, _⟩ => exact h1
    | ⟨2, _⟩ => exact h2
    | ⟨3, _⟩ => exact h3)

/-- Rank 5. -/
theorem ext5 {d : Fin 5 → Nat} (i j : (⟨5, d⟩ : Shape).Idx)
    (h0 : (i 0).val = (j 0).val) (h1 : (i 1).val = (j 1).val) (h2 : (i 2).val = (j 2).val)
    (h3 : (i 3).val = (j 3).val) (h4 : (i 4).val = (j 4).val) : i = j :=
  funext fun a => Fin.ext (by
    match a with
    | ⟨0, _⟩ => exact h0
    | ⟨1, _⟩ => exact h1
    | ⟨2, _⟩ => exact h2
    | ⟨3, _⟩ => exact h3
    | ⟨4, _⟩ => exact h4)

end Cert.LibIdxExt
-- ==== Proof.Block.lean ====
/-
  What one grid point leaves in its output block.

  At a grid point the body holds a block `x₀` of 1024 row groups of the re-laid input — group `g`, its kept half
  (the one half the block carries), the half's two rows `r = 0, 1`, 256 lanes — and the whole 256 × 128 factor
  `x₁`. It multiplies the 1024 × 256 matrix of the rows `r = 0` by the factor and stores the product in the output
  block's rows `(g, 0)`, and the same for `r = 1` in the rows `(g, 1)`. Over the extended reals the rounding of
  both operands to bf16 is the identity and a product into the zero block is the plain finite sum, so the output
  block is, entry by entry,
      block (g, r, j) = ∑ₚ x₀ (g, 0, r, p) · x₁ (p, j).
  The two stores tile the block; each store's value is this function read through the store's rectangle.
-/
import proofs.«120565_j31817117729481_2_alg».proof.Proof.Gen.KernelIdeal.Frame
import proofs.«120565_j31817117729481_2_alg».proof.Proof.LibPlainDot
import proofs.«120565_j31817117729481_2_alg».proof.Proof.LibIdxExt
import Idealize.ShloMosaic.Lib.Pipeline.Value
import Idealize.ShloMosaic.Lib.ValueIdx

noncomputable section

namespace Cert.KernelIdeal.Block

open Cert.KernelIdeal Cert.KernelIdeal.Gen Idealize.ShloMosaic Idealize.ShloMosaic.ValueIdx Cert.LibIdxExt

/-! ## The product's dimension record, coordinate by coordinate -/

theorem dot_l0 (i : S1024x128.Idx) (q : dot_S1024x256_S256x128_S1024x128_1_0_0_1_n_n.contr.Idx) :
    (dot_S1024x256_S256x128_S1024x128_1_0_0_1_n_n.lhsIdx i q 0).val = (i 0).val := by
  unfold DotDims.lhsIdx
  rw [dif_neg (show ¬(0 : Fin S1024x256.rank) ∈ dot_S1024x256_S256x128_S1024x128_1_0_0_1_n_n.lhsBatch by decide),
    dif_pos (show (0 : Fin S1024x256.rank) ∈ dot_S1024x256_S256x128_S1024x128_1_0_0_1_n_n.lhsNonContracting by decide)]
  rfl
theorem dot_l1 (i : S1024x128.Idx) (q : dot_S1024x256_S256x128_S1024x128_1_0_0_1_n_n.contr.Idx) :
    (dot_S1024x256_S256x128_S1024x128_1_0_0_1_n_n.lhsIdx i q 1).val = (q ⟨0, by decide⟩).val :=
  dot_S1024x256_S256x128_S1024x128_1_0_0_1_n_n.lhsIdx_val_of_single rfl i q
theorem dot_r0 (i : S1024x128.Idx) (q : dot_S1024x256_S256x128_S1024x128_1_0_0_1_n_n.contr.Idx) :
    (dot_S1024x256_S256x128_S1024x128_1_0_0_1_n_n.rhsIdx i q 0).val = (q ⟨0, by decide⟩).val :=
  dot_S1024x256_S256x128_S1024x128_1_0_0_1_n_n.rhsIdx_val_of_single rfl i q
theorem dot_r1 (i : S1024x128.Idx) (q : dot_S1024x256_S256x128_S1024x128_1_0_0_1_n_n.contr.Idx) :
    (dot_S1024x256_S256x128_S1024x128_1_0_0_1_n_n.rhsIdx i q 1).val = (i 1).val := by
  unfold DotDims.rhsIdx
  rw [dif_neg (show ¬(1 : Fin S256x128.rank) ∈ dot_S1024x256_S256x128_S1024x128_1_0_0_1_n_n.rhsBatch by decide),
    dif_pos (show (1 : Fin S256x128.rank) ∈ dot_S1024x256_S256x128_S1024x128_1_0_0_1_n_n.rhsNonContracting by decide)]
  rfl

/-! ## One store's value at an index -/

/-- The value a store writes, from the factor `v₀` and the 1024 loaded rows `v` (shape [1024, 1, 1, 256]): at
    `(g, ·, j)` the sum over the lanes `p` of `v (g, 0, 0, p) · v₀ (p, j)`. Both stores compute this function of
    their own loaded rows. -/
theorem pay2_at (v0 : Vec Ideal S256x128 .bf16) (v : Vec Ideal S1024x1x1x256 .f32) (g : Fin 1024) (u : Fin 1) (j : Fin 128) :
    k0_pay2 (F := Ideal) v0 v (ix3 g u j) = ∑ p : Fin 256, v (ix4 g (0 : Fin 1) (0 : Fin 1) p) * v0 (ix2 p j) := by
  unfold k0_pay2 k0_pay1
  dsimp only
  refine (shapeCast_apply _ shapeCasts_S1024x128_S1024x1x128 (ix3 g u j) (ix2 g j) (by
    rewrite [Shape.rowMajor_val_two, Shape.rowMajor_val_three]
    have hu : u.val < 1 := u.isLt
    show g.val * 128 + j.val = (g.val * 1 + u.val) * 128 + j.val
    omega)).trans ?_
  refine (Cert.LibPlainDot.matmul_zero_apply dot_S1024x256_S256x128_S1024x128_1_0_0_1_n_n rfl rfl dot_l0 dot_l1 dot_r0 dot_r1
    none _ _ g j).trans ?_
  refine Finset.sum_congr rfl fun p _ => ?_
  rw [shapeCast_self]
  refine congrArg (· * v0 (ix2 p j)) ?_
  show shapeCast S1024x256 v shapeCasts_S1024x1x1x256_S1024x256 (ix2 g p) = _
  exact shapeCast_apply _ shapeCasts_S1024x1x1x256_S1024x256 (ix2 g p) (ix4 g (0 : Fin 1) (0 : Fin 1) p) (by
    rewrite [Shape.rowMajor_val_four, Shape.rowMajor_val_two]
    show ((g.val * 1 + 0) * 1 + 0) * 256 + p.val = g.val * 256 + p.val
    omega)

theorem pay3_at (v0 : Vec Ideal S256x128 .bf16) (v : Vec Ideal S1024x1x1x256 .f32) (g : Fin 1024) (u : Fin 1) (j : Fin 128) :
    k0_pay3 (F := Ideal) v0 v (ix3 g u j) = ∑ p : Fin 256, v (ix4 g (0 : Fin 1) (0 : Fin 1) p) * v0 (ix2 p j) := by
  unfold k0_pay3 k0_pay1
  dsimp only
  refine (shapeCast_apply _ shapeCasts_S1024x128_S1024x1x128 (ix3 g u j) (ix2 g j) (by
    rewrite [Shape.rowMajor_val_two, Shape.rowMajor_val_three]
    have hu : u.val < 1 := u.isLt
    show g.val * 128 + j.val = (g.val * 1 + u.val) * 128 + j.val
    omega)).trans ?_
  refine (Cert.LibPlainDot.matmul_zero_apply dot_S1024x256_S256x128_S1024x128_1_0_0_1_n_n rfl rfl dot_l0 dot_l1 dot_r0 dot_r1
    none _ _ g j).trans ?_
  refine Finset.sum_congr rfl fun p _ => ?_
  rw [shapeCast_self]
  refine congrArg (· * v0 (ix2 p j)) ?_
  show shapeCast S1024x256 v shapeCasts_S1024x1x1x256_S1024x256 (ix2 g p) = _
  exact shapeCast_apply _ shapeCasts_S1024x1x1x256_S1024x256 (ix2 g p) (ix4 g (0 : Fin 1) (0 : Fin 1) p) (by
    rewrite [Shape.rowMajor_val_four, Shape.rowMajor_val_two]
    show ((g.val * 1 + 0) * 1 + 0) * 256 + p.val = g.val * 256 + p.val
    omega)

/-! ## The block -/

/-- The output block as one function of the input block `x₀` and the factor `x₁`:
    `(g, r, j) ↦ ∑ₚ x₀ (g, 0, r, p) · x₁ (p, j)`. -/
def blockFn (x0 : Vec Ideal S1024x1x2x256 .f32) (x1 : Vec Ideal S256x128 .bf16) : Vec Ideal S1024x2x128 .f32 := fun y =>
  ∑ p : Fin 256, x0 (ix4 (⟨(y 0).val, (y 0).isLt⟩ : Fin 1024) (0 : Fin 1) (⟨(y 1).val, (y 1).isLt⟩ : Fin 2) p)
    * x1 (ix2 p (⟨(y 2).val, (y 2).isLt⟩ : Fin 128))

/-- The store of the rows `r = 0` writes `blockFn` read through its rectangle (offset 0 on the middle axis). -/
theorem piece0 (x0 : Vec Ideal S1024x1x2x256 .f32) (x1 : Vec Ideal S256x128 .bf16) (x : S1024x1x128.Idx) :
    k0_pay2 (F := Ideal) (View.ld x1 r0_0) (View.ld x0 r0_1) x = blockFn x0 x1 (r0_3.emb x) := by
  obtain ⟨g, u, j, rfl⟩ : ∃ (g : Fin 1024) (u : Fin 1) (j : Fin 128), x = ix3 g u j := ⟨x 0, x 1, x 2, eq_ix3 x⟩
  refine (pay2_at _ _ g u j).trans ?_
  unfold blockFn
  have hu : u.val < 1 := u.isLt
  refine Finset.sum_congr rfl fun p _ => ?_
  refine congrArg₂ (· * ·) (congrArg x0 (ext4 _ _ ?_ ?_ ?_ ?_)) (congrArg x1 (ext2 _ _ ?_ ?_))
  · show 0 + 1 * g.val = 0 + 1 * g.val; rfl
  · show 0 + 1 * 0 = 0; rfl
  · show 0 + 1 * 0 = 0 + 1 * u.val; omega
  · show 0 + 1 * p.val = p.val; omega
  · show 0 + 1 * p.val = p.val; omega
  · show 0 + 1 * j.val = 0 + 1 * j.val; rfl

/-- The store of the rows `r = 1` writes `blockFn` read through its rectangle (offset 1 on the middle axis). -/
theorem piece1 (x0 : Vec Ideal S1024x1x2x256 .f32) (x1 : Vec Ideal S256x128 .bf16) (x : S1024x1x128.Idx) :
    k0_pay3 (F := Ideal) (View.ld x1 r0_0) (View.ld x0 r0_2) x = blockFn x0 x1 (r0_4.emb x) := by
  obtain ⟨g, u, j, rfl⟩ : ∃ (g : Fin 1024) (u : Fin 1) (j : Fin 128), x = ix3 g u j := ⟨x 0, x 1, x 2, eq_ix3 x⟩
  refine (pay3_at _ _ g u j).trans ?_
  unfold blockFn
  have hu : u.val < 1 := u.isLt
  refine Finset.sum_congr rfl fun p _ => ?_
  refine congrArg₂ (· * ·) (congrArg x0 (ext4 _ _ ?_ ?_ ?_ ?_)) (congrArg x1 (ext2 _ _ ?_ ?_))
  · show 0 + 1 * g.val = 0 + 1 * g.val; rfl
  · show 0 + 1 * 0 = 0; rfl
  · show 1 + 1 * 0 = 1 + 1 * u.val; omega
  · show 0 + 1 * p.val = p.val; omega
  · show 0 + 1 * p.val = p.val; omega
  · show 0 + 1 * j.val = 0 + 1 * j.val; rfl

/-- What the body leaves in the output block is `blockFn` of its two input blocks: the two stores tile the block
    and each writes `blockFn` through its own rectangle. -/
theorem out_eq (x0 : Vec Ideal S1024x1x2x256 .f32) (x1 : Vec Ideal S256x128 .bf16) :
    out0_2 (F := Ideal) x0 x1 = blockFn x0 x1 := by
  funext y
  unfold out0_2
  refine View.canon_apply_of_pieces (blockFn x0 x1) _ ?_ y (cover0_2 _ _ y)
  intro p hp x
  simp only [List.mem_cons, List.mem_nil_iff, or_false] at hp
  rcases hp with rfl | rfl
  · exact piece1 x0 x1 x
  · exact piece0 x0 x1 x

end Cert.KernelIdeal.Block

end
-- ==== Proof.Arr.lean ====
/-
  The array the kernel's region leaves: every output block is a block of ONE function of the two arrays the region
  reads.

  The region reads the re-laid input `X : [65536, 2, 2, 256]` (row group, half, row of the half, lane) through
  blocks of 1024 row groups that keep only half 0, and the whole factor `H : [256, 128]`; grid point `t` writes
  block `t` (1024 row groups) of the result `[65536, 2, 128]`. What a point leaves in its block
  (`Block.blockFn` of its input blocks) is, read through the block's rectangle, the function
      (g, r, j) ↦ ∑ₚ X (g, 0, r, p) · H (p, j)
  of the WHOLE arrays: the input block's row groups are the output block's (the two index maps agree on axis 0 and
  are zero elsewhere), and the factor's one block is the whole factor. The 64 blocks tile the result, so after the
  run the array is that function.
-/
import proofs.«120565_j31817117729481_2_alg».proof.Proof.Block

noncomputable section

namespace Cert.KernelIdeal.Arr

open Cert.KernelIdeal Cert.KernelIdeal.Gen Cert.KernelIdeal.Block Idealize.ShloMosaic Idealize.ShloMosaic.TcCoe Idealize.SL.Sem
open Idealize.ShloMosaic.ValueIdx Cert.LibIdxExt
open Idealize.ShloMosaic.Pipeline (Dat)

variable (m : (ℓ : Loc nD τ sig) → Buf (Elt Ideal) ℓ)

/-- The result array as one function of the re-laid input `X` and the factor `H`:
    `(g, r, j) ↦ ∑ₚ X (g, 0, r, p) · H (p, j)`. -/
def arrFn (X : S65536x2x2x256.Idx → EReal) (H : S256x128.Idx → EReal) : S65536x2x128.Idx → EReal := fun i =>
  ∑ p : Fin 256, X (ix4 (⟨(i 0).val, (i 0).isLt⟩ : Fin 65536) (0 : Fin 2) (⟨(i 1).val, (i 1).isLt⟩ : Fin 2) p)
    * H (ix2 p (⟨(i 2).val, (i 2).isLt⟩ : Fin 128))

/-- `arrFn` at an index given by its coordinates. -/
theorem arrFn_apply (X : S65536x2x2x256.Idx → EReal) (H : S256x128.Idx → EReal) (g : Fin 65536) (r : Fin 2) (j : Fin 128) :
    arrFn X H (ix3 g r j) = ∑ p : Fin 256, X (ix4 g (0 : Fin 2) r p) * H (ix2 p j) := rfl

/-- The three index maps over the grid: the input's block index is the output's on the row-group axis and zero
    on the others, the factor's is zero, the output's is zero off the row-group axis and at most 63 on it. -/
theorem idx_facts : ∀ t : Fin cfg0.N,
    win0_0.index t (0 : Fin 4) = win0_2.index t (0 : Fin 3) ∧ win0_0.index t (1 : Fin 4) = 0
    ∧ win0_0.index t (2 : Fin 4) = 0 ∧ win0_0.index t (3 : Fin 4) = 0
    ∧ win0_1.index t (0 : Fin 2) = 0 ∧ win0_1.index t (1 : Fin 2) = 0
    ∧ win0_2.index t (1 : Fin 3) = 0 ∧ win0_2.index t (2 : Fin 3) = 0 ∧ win0_2.index t (0 : Fin 3) ≤ 63 :=
  (by decide +kernel : ∀ t : Fin grid0.N, _)

/-- Every block of row groups is some point's. -/
theorem idx_onto : ∀ q : Fin 64, ∃ t : Fin cfg0.N, win0_2.index t = ![q.val, 0, 0] :=
  (by decide +kernel : ∀ q : Fin 64, ∃ t : Fin grid0.N, win0_2.index t = ![q.val, 0, 0])

/-- What point `t` writes back is block `t` of `arrFn` of the arrays as the region finds them. -/
theorem flushed_eq (c : Dev nD) (t : Fin cfg0.N) :
    (dats m 0 c).flushed 2 t = ((cfg0.win 2).blk t).view.read (Elt Ideal) (arrFn (V m c main_v3) (V m c main_v2)) := by
  show (cfg0.win 2).cut (grid0.coords t) ((dats m 0 c).after 2 t) = _
  rw [after0_2]
  obtain ⟨e0, e1, e2, e3, e4, e5, e6, e7, e8⟩ := idx_facts t
  funext y
  show out0_2 (iblk m c 0 t) (iblk m c 1 t) y = arrFn (V m c main_v3) (V m c main_v2) (((cfg0.win 2).blk t).view.emb y)
  refine (congrFun (out_eq (iblk m c 0 t) (iblk m c 1 t)) y).trans ?_
  unfold blockFn arrFn
  refine Finset.sum_congr rfl fun p _ => ?_
  refine congrArg₂ (· * ·) ?_ ?_
  · show V m c main_v3 (((cfg0.win 0).blk t).view.emb (ix4 (⟨(y 0).val, (y 0).isLt⟩ : Fin 1024) (0 : Fin 1) (⟨(y 1).val, (y 1).isLt⟩ : Fin 2) p)) = _
    refine congrArg (V m c main_v3) (ext4 _ _ ?_ ?_ ?_ ?_)
    · show win0_0.index t (0 : Fin 4) * 1024 + 1 * (y 0).val = win0_2.index t (0 : Fin 3) * 1024 + 1 * (y 0).val; omega
    · show win0_0.index t (1 : Fin 4) * 1 + 1 * 0 = 0; omega
    · show win0_0.index t (2 : Fin 4) * 2 + 1 * (y 1).val = win0_2.index t (1 : Fin 3) * 2 + 1 * (y 1).val; omega
    · show win0_0.index t (3 : Fin 4) * 256 + 1 * p.val = p.val; omega
  · show V m c main_v2 (((cfg0.win 1).blk t).view.emb (ix2 p (⟨(y 2).val, (y 2).isLt⟩ : Fin 128))) = _
    refine congrArg (V m c main_v2) (ext2 _ _ ?_ ?_)
    · show win0_1.index t (0 : Fin 2) * 256 + 1 * p.val = p.val; omega
    · show win0_1.index t (1 : Fin 2) * 128 + 1 * (y 2).val = win0_2.index t (2 : Fin 3) * 128 + 1 * (y 2).val; omega

/-- An index of the result is in point `t`'s block iff each coordinate is in the block's range on its axis. -/
theorem mem_blk (t : Fin cfg0.N) (i : S65536x2x128.Idx) :
    i ∈ ((cfg0.win 2).blk t).view.set ↔ ∀ a : Fin 3, win0_2.index t a * S1024x2x128.size a ≤ (i a).val
      ∧ (i a).val < win0_2.index t a * S1024x2x128.size a + S1024x2x128.size a := by
  show i ∈ ((View.whole main_v4).slice (win0_2.rect t)).set ↔ _
  rw [View.set_slice_whole, Rect.mem_set_unit]
  exact Iff.rfl

/-- The blocks tile the result: row group `g` is in the block of point `g / 1024`. -/
theorem cover (i : S65536x2x128.Idx) :
    ∃ t : Fin cfg0.N, (cfg0.win 2).flush t = true ∧ i ∈ ((cfg0.win 2).blk t).view.set := by
  have h0 : (i 0).val < 65536 := (i 0).isLt
  have h1 : (i 1).val < 2 := (i 1).isLt
  have h2 : (i 2).val < 128 := (i 2).isLt
  obtain ⟨t, ht⟩ := idx_onto ⟨(i 0).val / 1024, by omega⟩
  have q0 : win0_2.index t (0 : Fin 3) = (i 0).val / 1024 := congrFun ht 0
  have q1 : win0_2.index t (1 : Fin 3) = 0 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1024 ≤ (i 0).val ∧ (i 0).val < win0_2.index t (0 : Fin 3) * 1024 + 1024; omega
  | ⟨1, _⟩ => show win0_2.index t (1 : Fin 3) * 2 ≤ (i 1).val ∧ (i 1).val < win0_2.index t (1 : Fin 3) * 2 + 2; omega
  | ⟨2, _⟩ => show win0_2.index t (2 : Fin 3) * 128 ≤ (i 2).val ∧ (i 2).val < win0_2.index t (2 : Fin 3) * 128 + 128; omega

/-- The result array after the run is `arrFn` of the arrays the region found. -/
theorem final (c : Dev nD) : (dats m 0 c).arrAt 2 cfg0.N = arrFn (V m c main_v3) (V m c main_v2) :=
  (dats m 0 c).arrAt_eq_of_cover 2 _ (fun t _ => flushed_eq m c t) (cover)

end Cert.KernelIdeal.Arr

end
-- ==== Proof.LibHostDot.lean ====
/-
  A plain matrix product computed on the host, read at an index, at the extended reals.

  For a rank-2 product `[M, K] · [K, N] → [M, N]` (one contracted axis: the left operand's columns against the right
  operand's rows, no batch axis) the entry at `(p, e)` is the finite sum over the contracted coordinate `k` of
  `lhs (p, k) · rhs (k, e)` — the same sum a kernel's product into a zero block has there. The product's dimension
  record enters only through four coordinate facts about its operand index maps (each a one-line computation for a
  literal record), so the lemma serves any such record at any extents.
-/
import Idealize.ShloMosaic.Lib.ValueIdx
import Idealize.ShloMosaic.PureOps.Ideal.Laws

noncomputable section

namespace Cert.LibHostDot

open Idealize.ShloMosaic Idealize.ShloMosaic.ValueIdx

/-- The host's `[M, K] · [K, N]`, at `(p, e)`: `∑ₖ lhs (p, k) · rhs (k, e)`. The hypotheses say that the record
    contracts ONE axis of extent `K`, that the left operand is read at (output row, contracted coordinate) and the right
    operand at (contracted coordinate, output column). -/
theorem dotGeneral_apply {M K N : ℕ} {φ₁ φ₂ : FTy}
    (D : DotDims ⟨2, ![M, K]⟩ ⟨2, ![K, N]⟩ ⟨2, ![M, N]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![M, K]⟩ φ₁) (rhs : FVec Ideal ⟨2, ![K, N]⟩ φ₂) (p : Fin M) (e : Fin N) :
    Host.dotGeneral D none lhs rhs (ix2 p e) = ∑ k : Fin K, lhs (ix2 p k) * rhs (ix2 k e) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p e) ((contrEquiv1 D K hr hs).symm k) = ix2 p k := funext fun a => Fin.ext (by
    match a with
    | ⟨0, _⟩ => exact hl0 _ _
    | ⟨1, _⟩ => exact (hl1 _ _).trans hk)
  have er : D.rhsIdx (ix2 p e) ((contrEquiv1 D K hr hs).symm k) = ix2 k e := funext fun a => Fin.ext (by
    match a with
    | ⟨0, _⟩ => exact (hr0 _ _).trans hk
    | ⟨1, _⟩ => exact hr1 _ _)
  rw [el, er]

end Cert.LibHostDot

end
-- ==== Proof.Spec.lean ====
/-
  The result both programs compute, as one function of the two argument arrays over the extended reals.

  With `x : [16, 64, 256, 256]` and `h : [256, 256]`, write `h·h` for the matrix square,
  `(h·h)[p, j] = ∑ₖ h[p, k] · h[k, j]`, and for every batch `b` and channel `c` the 256 × 256 product
  `(x[b, c] · (h·h))[i, j] = ∑ₚ x[b, c, i, p] · (h·h)[p, j]`. The result has shape `[16, 64, 128, 128]`; its entry
  `(b, c₂, i₂, j₂)` is entry `(4·c₂ + i₂ / 64, j₂)` of the product of channel `i₂ % 64` of batch `b`: the
  channel scramble that writing the per-channel products side by side along the last axis and re-reading the rows
  as channels amounts to, restricted to the leading 128 × 128 corner.

  Also here: the one fact about extended reals that the comparison of the two programs needs — a real `r` times
  `(|r| + 1) / (|r| + 1)` is `r` (the quotient is `1` because `|r| + 1` is a positive real) — and the value of the
  float word `1.0`.
-/
import Idealize.ShloMosaic.Lib.ValueIdx
import Idealize.ShloMosaic.PureOps.Ideal.Laws

noncomputable section

namespace Cert.Haar

open Idealize.ShloMosaic Idealize.ShloMosaic.ValueIdx

/-- The input's shape, the matrix's shape, the result's shape. -/
abbrev SX : Shape := ⟨4, ![16, 64, 256, 256]⟩
abbrev SH : Shape := ⟨2, ![256, 256]⟩
abbrev SO : Shape := ⟨4, ![16, 64, 128, 128]⟩

/-- Entry `(p, j)` of the matrix square `h·h`. -/
def sqEntry (h : SH.Idx → EReal) (p j : Fin 256) : EReal := ∑ k : Fin 256, h (ix2 p k) * h (ix2 k j)

/-- Entry `(i, j)` of `x[b, c] · (h·h)`. -/
def rowTimesSq (x : SX.Idx → EReal) (h : SH.Idx → EReal) (b : Fin 16) (c : Fin 64) (i j : Fin 256) : EReal :=
  ∑ p : Fin 256, x (ix4 b c i p) * sqEntry h p j

/-- The result: entry `(b, c₂, i₂, j₂)` is entry `(4·c₂ + i₂ / 64, j₂)` of `x[b, i₂ % 64] · (h·h)`. -/
def G (x : SX.Idx → EReal) (h : SH.Idx → EReal) : SO.Idx → EReal := fun o =>
  rowTimesSq x h ⟨(o 0).val, (o 0).isLt⟩
    ⟨(o 2).val % 64, Nat.mod_lt _ (by norm_num)⟩
    ⟨4 * (o 1).val + (o 2).val / 64, by
      have h1 : (o 1).val < 64 := (o 1).isLt
      have h2 : (o 2).val < 128 := (o 2).isLt
      omega⟩
    ⟨(o 3).val, by have h3 : (o 3).val < 128 := (o 3).isLt; omega⟩

/-- `G` at an index given by its coordinates. -/
theorem G_apply (x : SX.Idx → EReal) (h : SH.Idx → EReal) (b : Fin 16) (c₂ : Fin 64) (i₂ j₂ : Fin 128) :
    G x h (ix4 b c₂ i₂ j₂)
      = rowTimesSq x h b ⟨i₂.val % 64, Nat.mod_lt _ (by norm_num)⟩
          ⟨4 * c₂.val + i₂.val / 64, by have := c₂.isLt; have := i₂.isLt; omega⟩
          ⟨j₂.val, by have := j₂.isLt; omega⟩ := rfl

/-- The float word `1.0` denotes the real `1`. -/
theorem ofBits_one : Ideal.ofBits .f32 0x3F800000#32 = 1 := by
  simp [Ideal.ofBits, Ideal.ieee, -EReal.coe_mul]; norm_num

/-- A real `r` times `(|r| + 1) / (|r| + 1)` is `r`: the denominator is a positive real, so the quotient is `1`.
    (`|r|` is spelt `max r (-r)`, as the extended reals' absolute value is.) -/
theorem mul_unit_quotient (r : ℝ) :
    (r : EReal) * Ideal.div (max (r : EReal) (-(r : EReal)) + 1) (max (r : EReal) (-(r : EReal)) + 1) = (r : EReal) := by
  have hpos : (0 : ℝ) < max r (-r) + 1 := by
    have : 0 ≤ max r (-r) := by rw [← abs_eq_max_neg]; exact abs_nonneg r
    linarith
  have e : max (r : EReal) (-(r : EReal)) + 1 = ((max r (-r) + 1 : ℝ) : EReal) := by
    have hm : max (r : EReal) (-(r : EReal)) = ((max r (-r) : ℝ) : EReal) := by
      rw [← EReal.coe_neg]; exact (EReal.coe_strictMono.monotone.map_max).symm
    rw [hm, ← EReal.coe_one, ← EReal.coe_add]
  rw [e, Ideal.div_coe hpos.ne', ← EReal.coe_mul, mul_one_div_cancel hpos.ne', EReal.coe_one, mul_one]

end Cert.Haar

end
-- ==== Proof.KernelVal.lean ====
/-
  The kernel program's result as a function of its two arguments, and that this function is `G`.

  Around its region the program does layout work only. Before: the matrix square `h·h` restricted to its first 128
  columns (rounded to bf16: the identity over the extended reals) is the factor; the input is re-read as
  [65536, 2, 2, 256] — row group `g = (b·64 + c)·64 + q`, half `o`, row `r` of the half, so that row
  `4·q + 2·o + r` of channel `c` of batch `b` is `(g, o, r)`. After: the region's [65536, 2, 128] result is re-read as
  [16, 64, 64, 2, 128] = (b, c, q, r, j), the channel axis is moved behind `(q, r)`, and (q, r, c) are flattened
  into 64 channels of 128 rows: `c₂ = q` and `i₂ = 64·r + c`. So entry `(b, c₂, i₂, j₂)` of the program's result is
  the region's entry at row group `(b·64 + i₂ % 64)·64 + c₂`, row `i₂ / 64`, column `j₂`, which is
  `∑ₚ x[b, i₂ % 64, 4·c₂ + i₂ / 64, p] · (h·h)[p, j₂]`: `G`.
-/
import proofs.«120565_j31817117729481_2_alg».proof.Proof.Arr
import proofs.«120565_j31817117729481_2_alg».proof.Proof.LibHostDot
import proofs.«120565_j31817117729481_2_alg».proof.Proof.Spec

noncomputable section

namespace Cert.KernelIdeal.Val

open Cert.KernelIdeal Cert.KernelIdeal.Gen Cert.KernelIdeal.Arr Idealize.ShloMosaic Idealize.ShloMosaic.ValueIdx Cert.LibIdxExt Cert.Haar

/-! ## The host operations as functions -/

/-- The input re-read as [65536, 2, 2, 256]. -/
def relaid (x : FVec Ideal S16x64x256x256 .f32) : FVec Ideal S65536x2x2x256 .f32 :=
  shapeCast S65536x2x2x256 x shapeCasts_S16x64x256x256_S65536x2x2x256

/-- The factor: the first 128 columns of `h·h`. -/
def factor (h : FVec Ideal S256x256 .f32) : FVec Ideal S256x128 .bf16 :=
  truncf .bf16 (extractStridedSlice S256x128 ![0, 0]
    (Host.dotGeneral (F := Ideal) dot_S256x256_S256x256_S256x256_1_0_0_1_n_n none h h) slices_S256x256_S256x128_0_0) bitsLt_bf16_f32

/-- The three layout operations after the region. -/
def tailFn (A : FVec Ideal S65536x2x128 .f32) : FVec Ideal S16x64x128x128 .f32 :=
  shapeCast S16x64x128x128 (transpose S16x64x2x64x128 [0, 2, 3, 1, 4]
    (shapeCast S16x64x64x2x128 A shapeCasts_S65536x2x128_S16x64x64x2x128)
    transposes_S16x64x64x2x128_S16x64x2x64x128_0_2_3_1_4) shapeCasts_S16x64x2x64x128_S16x64x128x128

/-- The program's result from its two arguments. -/
def kernelVal (x : FVec Ideal S16x64x256x256 .f32) (h : FVec Ideal S256x256 .f32) : FVec Ideal S16x64x128x128 .f32 :=
  tailFn (arrFn (relaid x) (factor h))

/-! ## Each read at an index -/

/-- Row `r` of half `o` of row group `(b·64 + c)·64 + q` is row `4·q + 2·o + r` of channel `c` of batch `b`. -/
theorem relaid_at (x : FVec Ideal S16x64x256x256 .f32) (b : Fin 16) (c q : Fin 64) (o r : Fin 2) (p : Fin 256)
    (hg : (b.val * 64 + c.val) * 64 + q.val < 65536) (hi : 4 * q.val + 2 * o.val + r.val < 256) :
    relaid x (ix4 (⟨(b.val * 64 + c.val) * 64 + q.val, hg⟩ : Fin 65536) o r p)
      = x (ix4 b c (⟨4 * q.val + 2 * o.val + r.val, hi⟩ : Fin 256) p) := by
  unfold relaid
  refine shapeCast_apply _ shapeCasts_S16x64x256x256_S65536x2x2x256 _ _ ?_
  rewrite [Shape.rowMajor_val_four, Shape.rowMajor_val_four]
  show ((b.val * 64 + c.val) * 256 + (4 * q.val + 2 * o.val + r.val)) * 256 + p.val
    = ((((b.val * 64 + c.val) * 64 + q.val) * 2 + o.val) * 2 + r.val) * 256 + p.val
  omega

theorem sq_l0 (i : S256x256.Idx) (q : dot_S256x256_S256x256_S256x256_1_0_0_1_n_n.contr.Idx) :
    (dot_S256x256_S256x256_S256x256_1_0_0_1_n_n.lhsIdx i q 0).val = (i 0).val := by
  unfold DotDims.lhsIdx
  rw [dif_neg (show ¬(0 : Fin S256x256.rank) ∈ dot_S256x256_S256x256_S256x256_1_0_0_1_n_n.lhsBatch by decide),
    dif_pos (show (0 : Fin S256x256.rank) ∈ dot_S256x256_S256x256_S256x256_1_0_0_1_n_n.lhsNonContracting by decide)]
  rfl
theorem sq_l1 (i : S256x256.Idx) (q : dot_S256x256_S256x256_S256x256_1_0_0_1_n_n.contr.Idx) :
    (dot_S256x256_S256x256_S256x256_1_0_0_1_n_n.lhsIdx i q 1).val = (q ⟨0, by decide⟩).val :=
  dot_S256x256_S256x256_S256x256_1_0_0_1_n_n.lhsIdx_val_of_single rfl i q
theorem sq_r0 (i : S256x256.Idx) (q : dot_S256x256_S256x256_S256x256_1_0_0_1_n_n.contr.Idx) :
    (dot_S256x256_S256x256_S256x256_1_0_0_1_n_n.rhsIdx i q 0).val = (q ⟨0, by decide⟩).val :=
  dot_S256x256_S256x256_S256x256_1_0_0_1_n_n.rhsIdx_val_of_single rfl i q
theorem sq_r1 (i : S256x256.Idx) (q : dot_S256x256_S256x256_S256x256_1_0_0_1_n_n.contr.Idx) :
    (dot_S256x256_S256x256_S256x256_1_0_0_1_n_n.rhsIdx i q 1).val = (i 1).val := by
  unfold DotDims.rhsIdx
  rw [dif_neg (show ¬(1 : Fin S256x256.rank) ∈ dot_S256x256_S256x256_S256x256_1_0_0_1_n_n.rhsBatch by decide),
    dif_pos (show (1 : Fin S256x256.rank) ∈ dot_S256x256_S256x256_S256x256_1_0_0_1_n_n.rhsNonContracting by decide)]
  rfl

/-- The factor at `(p, j)` is `(h·h)[p, j]`. -/
theorem factor_at (h : FVec Ideal S256x256 .f32) (p : Fin 256) (j : Fin 128) (hj : j.val < 256) :
    factor h (ix2 p j) = sqEntry h p (⟨j.val, hj⟩ : Fin 256) := by
  unfold factor
  show extractStridedSlice S256x128 ![0, 0] (Host.dotGeneral (F := Ideal) dot_S256x256_S256x256_S256x256_1_0_0_1_n_n none h h)
    slices_S256x256_S256x128_0_0 (ix2 p j) = _
  refine (extractStridedSlice_apply ![0, 0] _ slices_S256x256_S256x128_0_0 (ix2 p j) (ix2 p (⟨j.val, hj⟩ : Fin 256))
    (fun a => match a with
      | ⟨0, _⟩ => by show p.val = 0 + p.val; omega
      | ⟨1, _⟩ => by show j.val = 0 + j.val; omega)).trans ?_
  exact Cert.LibHostDot.dotGeneral_apply dot_S256x256_S256x256_S256x256_1_0_0_1_n_n rfl rfl sq_l0 sq_l1 sq_r0 sq_r1 h h p _

/-- Entry `(b, c₂, i₂, j₂)` after the region is the region's entry at row group `(b·64 + i₂ % 64)·64 + c₂`, row
    `i₂ / 64`, column `j₂`. -/
theorem tail_at (A : FVec Ideal S65536x2x128 .f32) (b : Fin 16) (c₂ : Fin 64) (i₂ j₂ : Fin 128)
    (hg : (b.val * 64 + i₂.val % 64) * 64 + c₂.val < 65536) (hr : i₂.val / 64 < 2) :
    tailFn A (ix4 b c₂ i₂ j₂)
      = A (ix3 (⟨(b.val * 64 + i₂.val % 64) * 64 + c₂.val, hg⟩ : Fin 65536) (⟨i₂.val / 64, hr⟩ : Fin 2) j₂) := by
  have hb := b.isLt; have hc := c₂.isLt; have hi := i₂.isLt; have hj := j₂.isLt
  unfold tailFn
  refine (shapeCast_apply _ shapeCasts_S16x64x2x64x128_S16x64x128x128 (ix4 b c₂ i₂ j₂)
    (ix5 b c₂ (⟨i₂.val / 64, hr⟩ : Fin 2) (⟨i₂.val % 64, Nat.mod_lt _ (by norm_num)⟩ : Fin 64) j₂) (by
      rewrite [Shape.rowMajor_val_five, Shape.rowMajor_val_four]
      show (((b.val * 64 + c₂.val) * 2 + i₂.val / 64) * 64 + i₂.val % 64) * 128 + j₂.val
        = ((b.val * 64 + c₂.val) * 128 + i₂.val) * 128 + j₂.val
      omega)).trans ?_
  refine (transpose_apply [0, 2, 3, 1, 4] _ transposes_S16x64x64x2x128_S16x64x2x64x128_0_2_3_1_4
    (ix5 b c₂ (⟨i₂.val / 64, hr⟩ : Fin 2) (⟨i₂.val % 64, Nat.mod_lt _ (by norm_num)⟩ : Fin 64) j₂)
    (ix5 b (⟨i₂.val % 64, Nat.mod_lt _ (by norm_num)⟩ : Fin 64) c₂ (⟨i₂.val / 64, hr⟩ : Fin 2) j₂)
    (fun a => match a with
      | ⟨0, _⟩ => rfl
      | ⟨1, _⟩ => rfl
      | ⟨2, _⟩ => rfl
      | ⟨3, _⟩ => rfl
      | ⟨4, _⟩ => rfl)).trans ?_
  refine shapeCast_apply _ shapeCasts_S65536x2x128_S16x64x64x2x128 _ _ ?_
  rewrite [Shape.rowMajor_val_three, Shape.rowMajor_val_five]
  show (((b.val * 64 + i₂.val % 64) * 64 + c₂.val) * 2 + i₂.val / 64) * 128 + j₂.val
    = (((b.val * 64 + i₂.val % 64) * 64 + c₂.val) * 2 + i₂.val / 64) * 128 + j₂.val
  rfl

/-! ## The program's result is `G` -/

theorem kernelVal_eq_G (x : FVec Ideal S16x64x256x256 .f32) (h : FVec Ideal S256x256 .f32) :
    kernelVal x h = G x h := by
  funext o
  obtain ⟨b, c₂, i₂, j₂, rfl⟩ : ∃ (b : Fin 16) (c₂ : Fin 64) (i₂ j₂ : Fin 128), o = ix4 b c₂ i₂ j₂ :=
    ⟨o 0, o 1, o 2, o 3, eq_ix4 o⟩
  have hb := b.isLt; have hc := c₂.isLt; have hi := i₂.isLt; have hj := j₂.isLt
  unfold kernelVal
  rw [tail_at _ b c₂ i₂ j₂ (by omega) (by omega), arrFn_apply, G_apply]
  unfold rowTimesSq
  refine Finset.sum_congr rfl fun p _ => ?_
  rw [relaid_at x b (⟨i₂.val % 64, Nat.mod_lt _ (by norm_num)⟩ : Fin 64) c₂ (0 : Fin 2) (⟨i₂.val / 64, by omega⟩ : Fin 2) p
      (by omega) (by show 4 * c₂.val + 2 * 0 + i₂.val / 64 < 256; omega),
    factor_at h p j₂ (by omega)]
  refine congrArg (· * sqEntry h p _) (congrArg x (ext4 _ _ rfl rfl ?_ rfl))
  show 4 * c₂.val + 2 * 0 + i₂.val / 64 = 4 * c₂.val + i₂.val / 64
  omega

end Cert.KernelIdeal.Val

end
-- ==== Proof.KernelRun.lean ====
/-
  The kernel program's run, with its result named.

  The generated frame run already says where every buffer ends: the region's result array at what the blocks left,
  every other buffer at what the host operations after the region compute from that. Read here: the two arrays the
  region finds are the re-laid input and the factor (the four host operations before the region), the result
  buffer is the three layout operations after the region applied to the region's array, and that array is
  `Arr.arrFn` of the two — so the program's result is `Val.kernelVal` of its arguments, which is `G`.
-/
import proofs.«120565_j31817117729481_2_alg».proof.Proof.KernelVal
import Idealize.ShloMosaic.Lib.StableHlo.Run

noncomputable section

namespace Cert.KernelIdeal.Whole

open Cert.KernelIdeal Cert.KernelIdeal.Gen Cert.KernelIdeal.Arr Cert.KernelIdeal.Val Cert.Haar
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- The region finds the input re-read as [65536, 2, 2, 256]. -/
theorem V_v3 (c : Dev nD) : (V m c main_v3 : S65536x2x2x256.Idx → EReal) = relaid (m ((c : Thread nD τ).loc main_arg0)) := by
  show StableHlo.after hostOps0 (fun b => m (c, b)) (Proc.devRef .tc main_v3) = _
  after_results
  rfl

/-- The region finds the factor: the first 128 columns of the matrix square. -/
theorem V_v2 (c : Dev nD) : (V m c main_v2 : S256x128.Idx → EReal) = factor (m ((c : Thread nD τ).loc main_arg1)) := by
  show StableHlo.after hostOps0 (fun b => m (c, b)) (Proc.devRef .tc main_v2) = _
  after_results
  rfl

/-- The result buffer after the host operations that follow the region: the three layout operations of the region's
    array. -/
theorem tail_eq (c : Dev nD) :
    Pipeline.afterTail₀ cfgs (dats m) 0 (V0 m) [hostOps1] c main_v7 = tailFn ((dats m 0 c).arrAt 2 cfg0.N) := by
  unfold Pipeline.afterTail₀
  show StableHlo.after hostOps1 _ (Proc.devRef .tc main_v7) = _
  after_results
  show tailFn (Pipeline.withArrays spec0 c (V0 m c) (fun w => (dats m 0 c).arrAt w cfg0.N)
    (Proc.devRef .tc (Pipeline.arrRef spec0 2))) = _
  exact congrArg tailFn (Pipeline.withArrays_arr spec0 launch0.win.arr_inj c _ _ 2)

/-- The result buffer ends at `G` of the two arguments. -/
theorem result_eq (c : Dev nD) :
    Pipeline.afterTail₀ cfgs (dats m) 0 (V0 m) [hostOps1] c main_v7
      = G (m ((c : Thread nD τ).loc main_arg0)) (m ((c : Thread nD τ).loc main_arg1)) := by
  rw [tail_eq, final, V_v3, V_v2]
  exact kernelVal_eq_G _ _

/-- The run: every weakly fair execution terminates with the result at `G` of the arguments and the arguments
    unchanged. -/
theorem run : θ_run defs (onTc (τ := τ) (main (F := Ideal))) ⟨m, fun _ => 0, ρ⟩ fun r => ∀ c : Dev nD,
      r.2.mem ((c.tc : Thread nD τ).loc main_v7) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v7 (Pipeline.mem_restRefs_of main_v7 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Whole

end
-- ==== Proof.RefIsG.lean ====
/-
  The reference computes `G`.

  The reference multiplies `x` by `(|x| + 1) / (|x| + 1)` entry by entry — the entry itself when it is a real
  number —, multiplies every 256 × 256 channel on the right by the matrix `v₈[j, p] = ∑ₖ h[k, j] · h[p, k]`
  contracted over its SECOND axis — so by `(h·h)[p, j]`, the two factors of each term commuted —, and then re-lays
  the result: channels and rows swapped, the last two axes flattened to 64 · 256 lanes, the whole re-read as
  [16, 64, 256, 256], and the leading 128 × 128 corner kept. Following an index of the corner back through the
  four layout steps, entry `(b, c₂, i₂, j₂)` comes from row `4·c₂ + i₂ / 64`, column `j₂`, of channel `i₂ % 64`.
-/
import proofs.«120565_j31817117729481_2_alg».proof.Proof.Gen.ReferenceIdeal.Read
import proofs.«120565_j31817117729481_2_alg».proof.Proof.Spec
import proofs.«120565_j31817117729481_2_alg».proof.Proof.LibIdxExt

noncomputable section

namespace Cert.ReferenceIdeal.IsG

open Cert.ReferenceIdeal Cert.ReferenceIdeal.Read Idealize.ShloMosaic Idealize.ShloMosaic.ValueIdx Cert.LibIdxExt Cert.Haar

/-! ## The entries -/

/-- On a real entry the reference's first seven operations return the entry: `r · ((|r| + 1) / (|r| + 1)) = r`. -/
theorem v7_at (x : FVec Ideal S16x64x256x256 .f32) (i : S16x64x256x256.Idx) (hx : ∃ r : ℝ, x i = (r : EReal)) :
    val_main_v7 (F := Ideal) x i = x i := by
  obtain ⟨r, hr⟩ := hx
  rw [val_main_v7_apply, val_main_v6_apply, val_main_v2_apply, val_main_v5_apply, val_main_v0_apply, val_main_v3_apply,
    val_main_v1_apply, val_main_v4_apply, val_main_cst_apply, val_main_cst_0_apply, hr]
  simp only [Ideal.mulf_def, Ideal.hostDivf_def, Ideal.addf_def, Ideal.hostAbsf_def, Ideal.absf_def, Ideal.ofBits_def, ofBits_one]
  exact mul_unit_quotient r

/-- The reference's matrix `v₈` at `(j, p)` is `(h·h)[p, j]`: its terms are those of the square with the two
    factors commuted. -/
theorem v8_at (h : FVec Ideal S256x256 .f32) (j p : Fin 256) :
    val_main_v8 (F := Ideal) h (ix2 j p) = sqEntry h p j := by
  rw [val_main_v8_apply]
  unfold sqEntry
  refine Finset.sum_congr rfl fun k _ => ?_
  rw [mul_comm]
  exact congrArg₂ (· * ·) (congrArg h (ext2 _ _ rfl rfl)) (congrArg h (ext2 _ _ rfl rfl))

/-- The product of a channel by `v₈` over `v₈`'s second axis, at `(b, c, i, j)`, when `x` is real. -/
theorem v9_at (x : FVec Ideal S16x64x256x256 .f32) (h : FVec Ideal S256x256 .f32) (hx : ∀ i, ∃ r : ℝ, x i = (r : EReal))
    (b : Fin 16) (c : Fin 64) (i j : Fin 256) :
    val_main_v9 (F := Ideal) x h (ix4 b c i j) = rowTimesSq x h b c i j := by
  rw [val_main_v9_apply]
  unfold rowTimesSq
  refine Finset.sum_congr rfl fun p _ => ?_
  have el : lidx_main_v9 (ix4 b c i j) p = ix4 b c i p := ext4 _ _ rfl rfl rfl rfl
  have er : ridx_main_v9 (ix4 b c i j) p = ix2 j p := ext2 _ _ rfl rfl
  rw [el, er, v7_at x _ (hx _), v8_at]

/-! ## The layout steps, one index at a time -/

/-- The corner's index inside the full [16, 64, 256, 256] array. -/
theorem idx13 (b : Fin 16) (c₂ : Fin 64) (i₂ j₂ : Fin 128) :
    idx_main_v13 (ix4 b c₂ i₂ j₂)
      = ix4 b c₂ (⟨i₂.val, by have := i₂.isLt; omega⟩ : Fin 256) (⟨j₂.val, by have := j₂.isLt; omega⟩ : Fin 256) :=
  ext4 _ _ rfl rfl rfl rfl

/-- [16, 64, 256, 256] re-read from [16, 256, 16384]: row `4·c + i / 64`, lane `(i % 64)·256 + j`. -/
theorem idx12 (b : Fin 16) (c : Fin 64) (i j : Fin 256) :
    idx_main_v12 (ix4 b c i j)
      = ix3 b (⟨4 * c.val + i.val / 64, by have := c.isLt; have := i.isLt; omega⟩ : Fin 256)
          (⟨(i.val % 64) * 256 + j.val, by have := j.isLt; omega⟩ : Fin 16384) := by
  have hb := b.isLt; have hc := c.isLt; have hi := i.isLt; have hj := j.isLt
  refine ext3 _ _ ?_ ?_ ?_
  · show (((b.val * 64 + c.val) * 256 + i.val) * 256 + j.val) / 4194304 = b.val; omega
  · show (((b.val * 64 + c.val) * 256 + i.val) * 256 + j.val) / 16384 % 256 = 4 * c.val + i.val / 64; omega
  · show (((b.val * 64 + c.val) * 256 + i.val) * 256 + j.val) % 16384 = (i.val % 64) * 256 + j.val; omega

/-- [16, 256, 16384] flattened from [16, 256, 64, 256]: lane `s` is channel `s / 256`, column `s % 256`. -/
theorem idx11 (b : Fin 16) (r : Fin 256) (s : Fin 16384) :
    idx_main_v11 (ix3 b r s)
      = ix4 b r (⟨s.val / 256, by have := s.isLt; omega⟩ : Fin 64) (⟨s.val % 256, Nat.mod_lt _ (by norm_num)⟩ : Fin 256) := by
  have hb := b.isLt; have hr := r.isLt; have hs := s.isLt
  refine ext4 _ _ ?_ ?_ ?_ ?_
  · show ((b.val * 256 + r.val) * 16384 + s.val) / 4194304 = b.val; omega
  · show ((b.val * 256 + r.val) * 16384 + s.val) / 16384 % 256 = r.val; omega
  · show ((b.val * 256 + r.val) * 16384 + s.val) / 256 % 64 = s.val / 256; omega
  · show ((b.val * 256 + r.val) * 16384 + s.val) % 256 = s.val % 256; omega

/-- Channels and rows swapped. -/
theorem idx10 (b : Fin 16) (r : Fin 256) (c : Fin 64) (j : Fin 256) :
    idx_main_v10 (ix4 b r c j) = ix4 b c r j :=
  ext4 _ _ rfl rfl rfl rfl

/-! ## The reference's result -/

/-- On real inputs `x` the reference's result is `G x h`. -/
theorem result_eq (x : FVec Ideal S16x64x256x256 .f32) (h : FVec Ideal S256x256 .f32) (hx : ∀ i, ∃ r : ℝ, x i = (r : EReal)) :
    val_main_v13 (F := Ideal) x h = G x h := by
  funext o
  obtain ⟨b, c₂, i₂, j₂, rfl⟩ : ∃ (b : Fin 16) (c₂ : Fin 64) (i₂ j₂ : Fin 128), o = ix4 b c₂ i₂ j₂ :=
    ⟨o 0, o 1, o 2, o 3, eq_ix4 o⟩
  rw [val_main_v13_apply, val_main_v12_apply, val_main_v11_apply, val_main_v10_apply, idx13, idx12, idx11, idx10,
    v9_at x h hx, G_apply]
  have hi := i₂.isLt; have hj := j₂.isLt
  unfold rowTimesSq
  refine Finset.sum_congr rfl fun p _ => ?_
  refine congrArg₂ (· * ·) (congrArg x (ext4 _ _ rfl ?_ rfl rfl)) (congrArg (sqEntry h p) (Fin.ext ?_))
  · show ((i₂.val % 64) * 256 + j₂.val) / 256 = i₂.val % 64; omega
  · show ((i₂.val % 64) * 256 + j₂.val) % 256 = j₂.val; omega

end Cert.ReferenceIdeal.IsG

end
-- ==== Proof.Finite.lean ====
/-
  The precondition makes every entry of `x` a real number.

  The precondition is the conjunction of two `all`-reductions: every entry of `|x|` and every entry of `|h|` is
  strictly below the float `+∞`. Over the extended reals `|a| = max a (-a)` is below `+∞` exactly when `a` is neither
  infinity, that is, when `a` is a real number. Only the statement about `x` is used: the reference multiplies `x`
  by `(|x| + 1) / (|x| + 1)`, which is `1` on the reals only.
-/
import proofs.«120565_j31817117729481_2_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Real

open Cert.Pre_finite_inputs Idealize.ShloMosaic

instance : Subsingleton S_.Idx := ⟨fun a b => funext fun d => d.elim0⟩

/-- The float word of `+∞` denotes `⊤`. -/
theorem ofBits_inf : Ideal.ofBits .f32 0x7F800000#32 = ⊤ := by
  simp [Ideal.ofBits, Ideal.ieee]

/-- An extended real whose absolute value compares strictly below `⊤` is a real number. -/
theorem real_of_abs_lt_top (a : EReal) (h : Ideal.cmp .olt (max a (-a)) ⊤ = 1#1) : ∃ r : ℝ, a = (r : EReal) := by
  induction a using EReal.rec with
  | bot => exfalso; rw [EReal.neg_bot, max_eq_right bot_le] at h; simp [Ideal.cmp] at h
  | top => exfalso; rw [max_eq_left le_top] at h; simp [Ideal.cmp] at h
  | coe r => exact ⟨r, rfl⟩

/-- Under the precondition every entry of the first argument is a real number. -/
theorem real_of_pre (x : FVec Ideal S16x64x256x256 .f32) (h : FVec Ideal S256x256 .f32)
    (hpre : Cert.Pre_finite_inputs.fn (F := Ideal) x h = fun _ => 1#1) (i : S16x64x256x256.Idx) :
    ∃ r : ℝ, x i = (r : EReal) := by
  have h0 := congrFun hpre ValueIdx.ix0
  dsimp only [Cert.Pre_finite_inputs.fn, andi] at h0
  obtain ⟨h3, -⟩ := IntOp.andi_eq_one.1 h0
  have hi := Host.reduce_andi_all _ _ _ _ _ h3 i
  refine real_of_abs_lt_top (x i) ?_
  rw [← ofBits_inf]
  exact hi

end Cert.Pre_finite_inputs.Real

end
-- ==== Proof.lean ====
/-
  The two programs compute one function of their arguments over the extended reals.

  Both take `x : [16, 64, 256, 256]` and a matrix `h : [256, 256]` and return `[16, 64, 128, 128]`. The reference
  multiplies `x` by `(|x| + 1) / (|x| + 1)`, multiplies every channel on the right by `h·h`, writes the 64
  per-channel products of a batch side by side along the last axis, re-reads the 256 rows of 64·256 lanes as 64
  channels of 256 × 256, and keeps the leading 128 × 128 corner of each. The kernel program forms `h·h` once, keeps
  its first 128 columns, and multiplies only the rows of `x` that end up in the corner — of every four consecutive
  rows the first two — 1024 row groups per grid point, then re-lays the products. Both results are
      G (b, c₂, i₂, j₂) = ∑ₚ x[b, i₂ % 64, 4·c₂ + i₂ / 64, p] · (h·h)[p, j₂]      (Proof/Spec.lean).
  The reference's factor `(|x| + 1) / (|x| + 1)` is `1` exactly where `x` is a real number, which is what the
  precondition (every input finite) gives; nothing else in the comparison needs finiteness: the two sides spell the
  same finite sums of products, with the two factors of each term of `h·h` commuted.

  The kernel's side: Proof/Block.lean (what a grid point leaves in its block), Proof/Arr.lean (the region's array),
  Proof/KernelVal.lean (the layout operations around the region; the program's result is `G`), Proof/KernelRun.lean
  (the run). The reference's side: Proof/RefIsG.lean over the generated run and its read-at-an-index lemmas.
  Proof/Finite.lean: the precondition makes `x` real. The three frames are the generated ones (the reference's is
  its generated run with the result dropped); the idealization rewrote no operation, so `preserves` is `True`.
-/
import proofs.«120565_j31817117729481_2_alg».proof.Defs
import proofs.«120565_j31817117729481_2_alg».proof.Proof.Gen.Kernel
import proofs.«120565_j31817117729481_2_alg».proof.Proof.Gen.Kernel.Skeleton
import proofs.«120565_j31817117729481_2_alg».proof.Proof.Gen.Kernel.Launch
import proofs.«120565_j31817117729481_2_alg».proof.Proof.Gen.Kernel.Points
import proofs.«120565_j31817117729481_2_alg».proof.Proof.Gen.Kernel.Frame
import proofs.«120565_j31817117729481_2_alg».proof.Proof.Gen.KernelIdeal
import proofs.«120565_j31817117729481_2_alg».proof.Proof.Gen.KernelIdeal.Skeleton
import proofs.«120565_j31817117729481_2_alg».proof.Proof.Gen.KernelIdeal.Launch
import proofs.«120565_j31817117729481_2_alg».proof.Proof.Gen.KernelIdeal.Points
import proofs.«120565_j31817117729481_2_alg».proof.Proof.Gen.KernelIdeal.Frame
import proofs.«120565_j31817117729481_2_alg».proof.Proof.Gen.ReferenceIdeal
import proofs.«120565_j31817117729481_2_alg».proof.Proof.Gen.ReferenceIdeal.Run
import proofs.«120565_j31817117729481_2_alg».proof.Proof.Gen.ReferenceIdeal.Read
import proofs.«120565_j31817117729481_2_alg».proof.Proof.Gen.Pre_finite_inputs
import proofs.«120565_j31817117729481_2_alg».proof.Proof.KernelRun
import proofs.«120565_j31817117729481_2_alg».proof.Proof.RefIsG
import proofs.«120565_j31817117729481_2_alg».proof.Proof.Finite
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the result buffer at `G` of the arguments: the
    kernel program by its run, the reference because its composed term is `G` on real `x`, and the precondition
    makes `x` real. -/
theorem algebraic : Cert.algebraic_KernelIdeal_ReferenceIdeal := by
  intro m ρ m' ρ' hpre hagree
  refine ⟨fun c => Cert.Haar.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v13_eq]
  exact Cert.ReferenceIdeal.IsG.result_eq _ _ (Cert.Pre_finite_inputs.Real.real_of_pre _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
